-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S10000x16 : Shape := ⟨2, ![10000, 16]⟩
abbrev S10000x7 : Shape := ⟨2, ![10000, 7]⟩
abbrev S3300000x7 : Shape := ⟨2, ![3300000, 7]⟩
abbrev S1x7 : Shape := ⟨2, ![1, 7]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16x7, .f32⟩
  | .local _ .vmem, ⟨8, _⟩ => ⟨S10000x7, .f32⟩
  | .local _ .vmem, ⟨9, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x7.size a ≤ S100000x7.size a
  hwx1_2 : ∀ i : grid1.Coords, EltTy.bits .f32 = 32 ∨ (Rect.block (s := S100000x7) S10000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 92
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x7, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x7, .f32⟩
  | .hbm, ⟨82, _⟩ => ⟨S3300000x1, .f32⟩
  | .hbm, ⟨83, _⟩ => ⟨S3300000x7, .f32⟩
  | .hbm, ⟨84, _⟩ => ⟨S3300000x7, .f32⟩
  | .hbm, ⟨85, _⟩ => ⟨S_, .f32⟩
  | .hbm, ⟨86, _⟩ => ⟨S100000x7, .f32⟩
  | .hbm, ⟨87, _⟩ => ⟨S3300000x1, .i32⟩
  | .hbm, ⟨88, _⟩ => ⟨S100000x7, .f32⟩
  | .hbm, ⟨89, _⟩ => ⟨S1x7, .f32⟩
  | .hbm, ⟨90, _⟩ => ⟨S100000x7, .f32⟩
  | .hbm, ⟨91, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's whole run with its RESULT named. @main is seven segments: three stretches of host operations,
  the first matrix product's pallas_call, a stretch, the second product's pallas_call, a last stretch. The contents
  of every buffer at each boundary between segments are a fold from the launch memory: a host stretch applies its
  operations to what it finds, a pallas_call leaves its output array at what its grid points wrote back and every
  other buffer alone. The last boundary's contents `W7` therefore hold, at the result's buffer, the whole program's
  value as a function of the argument arrays — and at each argument's buffer, the argument unchanged.
  This module only states that run: every weakly fair execution terminates, nothing faults, the result buffer ends at
  `W7` there, the arguments end as launched. What `W7` at the result IS, as arithmetic, is read by the modules after it.
-/
import proofs.«148894_j8787503087873_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main from any memory with zero counters: it terminates without a fault, the result buffer `main_v65`
    ends at the last boundary's contents, and the six argument arrays end as launched. -/
theorem run_result : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibContractionRows.lean ====
/-
  One contraction, two spellings. A `tpu.matmul` into the zero accumulator and a host `dot_general`, each
  contracting ONE axis of the same extent `K`, are both — on the extended reals — the plain sum over `k < K` of the
  products of the two operands' entries along that axis (no accumulator left, no rounding, no order). So whenever the
  entries the two contractions multiply agree term by term, the two results agree: this is the only law that joins a
  matrix product computed block of rows by block of rows to the same product computed at once, since row `p` of a
  block IS a row of the whole left matrix and the right matrix is the same.

  The statement is over arbitrary shapes and dimension numbers: what is asked of them is only that each contracts one
  axis of extent `K` (`hr`/`hs`, `hR`/`hS`: the hypotheses of `ValueIdx.contrEquiv1`), and the operand entries are
  compared at the contraction coordinate `k : Fin K` carried to each side's own contraction index.
-/
import Idealize.ShloMosaic.PureOps.Ideal.Laws
import Idealize.ShloMosaic.Lib.ValueIdx

noncomputable section

namespace Cert.Lib.ContractionRows

open Idealize.ShloMosaic Idealize.ShloMosaic.ValueIdx
open scoped BigOperators

/-- A zero-accumulator `tpu.matmul` read at `j` equals a host `dot_general` read at `J` when, for every contraction
    coordinate `k`, the left factors agree and the right factors agree. Both sides are `∑ k, left k * right k`. -/
theorem matmul_zero_eq_dotGeneral {sl sr so SL SR SO : Shape} {φ₁ φ₂ : FTy}
    (d : DotDims sl sr so) (D : DotDims SL SR SO) (K : Nat)
    (hr : d.contr.rank = 1) (hs : d.contr.size ⟨0, by omega⟩ = K)
    (hR : D.contr.rank = 1) (hS : D.contr.size ⟨0, by omega⟩ = K)
    (prec prec' : Option ContractPrecision) (sched : HostSchedule)
    (lhs : FVec Ideal sl φ₁) (rhs : FVec Ideal sr φ₂) (LHS : FVec Ideal SL φ₁) (RHS : FVec Ideal SR φ₂)
    (j : so.Idx) (J : SO.Idx)
    (hl : ∀ k : Fin K, lhs (d.lhsIdx j ((contrEquiv1 d K hr hs).symm k)) = LHS (D.lhsIdx J ((contrEquiv1 D K hR hS).symm k)))
    (hrt : ∀ k : Fin K, rhs (d.rhsIdx j ((contrEquiv1 d K hr hs).symm k)) = RHS (D.rhsIdx J ((contrEquiv1 D K hR hS).symm k))) :
    FloatOps.matmul d prec lhs rhs (constant so .f32 0x00000000#32) j = FloatOps.dotGeneral D prec' sched LHS RHS J := by
  rw [Ideal.matmul_constant_zero_apply, Ideal.dotGeneral_apply,
    ← Equiv.sum_comp (contrEquiv1 d K hr hs).symm, ← Equiv.sum_comp (contrEquiv1 D K hR hS).symm]
  exact Finset.sum_congr rfl fun k _ => by rw [hl k, hrt k]

end Cert.Lib.ContractionRows

end
-- ==== Proof.FirstProduct.lean ====
/-
  The first matrix product, `x · W1`, computed by the kernel twenty row blocks at a time, IS the whole product.
  Grid point `t` loads rows `5000 t … 5000 t + 4999` of `x` (all 512 columns) and the whole of `W1`, multiplies them into
  a zero accumulator and writes the 5000 × 16 result back as rows `5000 t … 5000 t + 4999` of the output. Entry `(p, q)`
  of that block is `∑ k < 512, x[5000 t + p, k] · W1[k, q]`: row `p` of the block is row `5000 t + p` of `x`, so this is
  entry `(5000 t + p, q)` of the product of the whole matrices — the same sum over the same `k`, nothing reordered, no
  finiteness needed. The twenty blocks tile the 100000 rows (row `r` lies in block `r / 5000`), so the output array
  ends holding the whole product, stated here as the reference's own `dot_general` stage of the two arrays the region
  finds at its operands — for ANY contents `V` of the buffers at the region's entry.
-/
import proofs.«148894_j8787503087873_2_alg».proof.Proof.Gen.KernelIdeal.Frame
import proofs.«148894_j8787503087873_2_alg».proof.Proof.RefRead
import proofs.«148894_j8787503087873_2_alg».proof.Proof.LibContractionRows
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

/-! ## The block product's operand indices: output entry `(p, q)` and contraction position `k` read `(p, k)` and `(k, q)` -/

theorem blockOne_lhs_row (j : S5000x16.Idx) (q : dot_S5000x512_S512x16_S5000x16_1_0_0_1_n_n.contr.Idx) :
    (dot_S5000x512_S512x16_S5000x16_1_0_0_1_n_n.lhsIdx j q 0).val = (j 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem blockOne_lhs_k (j : S5000x16.Idx) (q : dot_S5000x512_S512x16_S5000x16_1_0_0_1_n_n.contr.Idx) :
    (dot_S5000x512_S512x16_S5000x16_1_0_0_1_n_n.lhsIdx j q 1).val = (q ⟨0, by decide⟩).val :=
  dot_S5000x512_S512x16_S5000x16_1_0_0_1_n_n.lhsIdx_val_of_single rfl j q
theorem blockOne_rhs_k (j : S5000x16.Idx) (q : dot_S5000x512_S512x16_S5000x16_1_0_0_1_n_n.contr.Idx) :
    (dot_S5000x512_S512x16_S5000x16_1_0_0_1_n_n.rhsIdx j q 0).val = (q ⟨0, by decide⟩).val :=
  dot_S5000x512_S512x16_S5000x16_1_0_0_1_n_n.rhsIdx_val_of_single rfl j q
theorem blockOne_rhs_col (j : S5000x16.Idx) (q : dot_S5000x512_S512x16_S5000x16_1_0_0_1_n_n.contr.Idx) :
    (dot_S5000x512_S512x16_S5000x16_1_0_0_1_n_n.rhsIdx j q 1).val = (j 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-! ## One entry of a block's product -/

/-- Entry `j` of a block's product is entry `J` of the whole product `X · W`, as soon as the block's row `j 0` is row
    `J 0` of `X`, the block's right operand is `W`, and `j`, `J` name the same column. -/
theorem blockOne_entry (xb : Vec Ideal S5000x512 .f32) (wb : Vec Ideal S512x16 .f32)
    (X : FVec Ideal Cert.ReferenceIdeal.S100000x512 .f32) (W : FVec Ideal Cert.ReferenceIdeal.S512x16 .f32)
    (j : S5000x16.Idx) (J : Cert.ReferenceIdeal.S100000x16.Idx)
    (hx : ∀ (y : S5000x512.Idx) (Y : Cert.ReferenceIdeal.S100000x512.Idx),
      (y 0).val = (j 0).val → (Y 0).val = (J 0).val → (Y 1).val = (y 1).val → xb y = X Y)
    (hw : ∀ (y : S512x16.Idx) (Y : Cert.ReferenceIdeal.S512x16.Idx),
      (Y 0).val = (y 0).val → (y 1).val = (j 1).val → (Y 1).val = (J 1).val → wb y = W Y) :
    k0_pay1 (F := Ideal) xb wb j = Cert.ReferenceIdeal.ReadP.val_main_v32 (F := Ideal) X W J := by
  show FloatOps.matmul (F := Ideal) dot_S5000x512_S512x16_S5000x16_1_0_0_1_n_n (some .fp32) xb wb (constant S5000x16 .f32 0x00000000#32) j
    = FloatOps.dotGeneral (F := Ideal) Cert.ReferenceIdeal.dot_S100000x512_S512x16_S100000x16_1_0_0_1_n_n none .single X W J
  refine Cert.Lib.ContractionRows.matmul_zero_eq_dotGeneral dot_S5000x512_S512x16_S5000x16_1_0_0_1_n_n Cert.ReferenceIdeal.dot_S100000x512_S512x16_S100000x16_1_0_0_1_n_n 512
    rfl rfl rfl rfl _ _ _ xb wb X W j J (fun k => ?_) (fun k => ?_)
  · refine hx _ _ (blockOne_lhs_row j _) (Cert.ReferenceIdeal.ReadP.lhs_main_v32_0 J _) ?_
    exact ((Cert.ReferenceIdeal.ReadP.lhs_main_v32_1 J _).trans (contrEquiv1_symm_val Cert.ReferenceIdeal.dot_S100000x512_S512x16_S100000x16_1_0_0_1_n_n 512 rfl rfl k)).trans
      ((blockOne_lhs_k j _).trans (contrEquiv1_symm_val dot_S5000x512_S512x16_S5000x16_1_0_0_1_n_n 512 rfl rfl k)).symm
  · refine hw _ _ ?_ (blockOne_rhs_col j _) (Cert.ReferenceIdeal.ReadP.rhs_main_v32_1 J _)
    exact ((Cert.ReferenceIdeal.ReadP.rhs_main_v32_0 J _).trans (contrEquiv1_symm_val Cert.ReferenceIdeal.dot_S100000x512_S512x16_S100000x16_1_0_0_1_n_n 512 rfl rfl k)).trans
      ((blockOne_rhs_k j _).trans (contrEquiv1_symm_val dot_S5000x512_S512x16_S5000x16_1_0_0_1_n_n 512 rfl rfl k)).symm

/-! ## The windows' blocks, as rows of the arrays -/

theorem zeroOffsets : (![0, 0] : Fin 2 → Nat) = fun _ => 0 := funext fun a => by fin_cases a <;> rfl

/-- The printed index maps, decided over the twenty grid points: the left operand's and the output's blocks are block
    row `t`; the right operand's block is the whole matrix. -/
theorem blockOne_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left operand's block at point `t` is rows `5000 t …` of the array at `main_arg0`. -/
theorem blockOne_lhs (c : Dev nD) (t : Fin cfg0.N) (y : S5000x512.Idx) (Y : Cert.ReferenceIdeal.S100000x512.Idx)
    (h0 : (Y 0).val = t.val * 5000 + (y 0).val) (h1 : (Y 1).val = (y 1).val) :
    (iblk0 V c 0 t : Vec Ideal S5000x512 .f32) y = (V c main_arg0 : Cert.ReferenceIdeal.S100000x512.Idx → Elt Ideal .f32) Y := by
  obtain ⟨e0, e1, -⟩ := blockOne_indices t
  unfold iblk0
  rw [View.read_apply]
  show V c main_arg0 _ = V c main_arg0 _
  congr 1
  funext a
  apply Fin.ext
  match a with
  | ⟨0, _⟩ => show win0_0.index t 0 * 5000 + 1 * (y 0).val = (Y 0).val; rw [e0, h0]; omega
  | ⟨1, _⟩ => show win0_0.index t 1 * 512 + 1 * (y 1).val = (Y 1).val; rw [e1, h1]; omega

/-- The right operand's block at every point is the whole array at `main_arg2`. -/
theorem blockOne_rhs (c : Dev nD) (t : Fin cfg0.N) (y : S512x16.Idx) (Y : Cert.ReferenceIdeal.S512x16.Idx)
    (h0 : (Y 0).val = (y 0).val) (h1 : (Y 1).val = (y 1).val) :
    (iblk0 V c 1 t : Vec Ideal S512x16 .f32) y = (V c main_arg2 : Cert.ReferenceIdeal.S512x16.Idx → Elt Ideal .f32) Y := by
  obtain ⟨-, -, e2, e3, -⟩ := blockOne_indices t
  unfold iblk0
  rw [View.read_apply]
  show V c main_arg2 _ = V c main_arg2 _
  congr 1
  funext a
  apply Fin.ext
  match a with
  | ⟨0, _⟩ => show win0_1.index t 0 * 512 + 1 * (y 0).val = (Y 0).val; rw [e2, h0]; omega
  | ⟨1, _⟩ => show win0_1.index t 1 * 16 + 1 * (y 1).val = (Y 1).val; rw [e3, h1]; omega

/-! ## What each point writes back, and the whole array -/

/-- WHAT POINT `t` WRITES BACK is block `t` of the whole product of the two arrays the region finds. -/
theorem blockOne_flushed (c : Dev nD) (t : Fin cfg0.N) :
    (dat0 (F := Ideal) V c).flushed 2 t = ((cfg0.win 2).blk t).view.read (Elt Ideal)
      (Cert.ReferenceIdeal.ReadP.val_main_v32 (F := Ideal) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x512) zeroOffsets, View.ld_unit_zero (S := S512x16) zeroOffsets]
  obtain ⟨-, -, -, -, e4, e5⟩ := blockOne_indices t
  funext j
  show k0_pay1 (F := Ideal) (iblk0 V c 0 t) (iblk0 V c 1 t) j
    = Cert.ReferenceIdeal.ReadP.val_main_v32 (F := Ideal) (V c main_arg0) (V c main_arg2) (((cfg0.win 2).blk t).view.emb j)
  have hJ0 : ((((cfg0.win 2).blk t).view.emb j) 0).val = t.val * 5000 + (j 0).val := by
    show win0_2.index t 0 * 5000 + 1 * (j 0).val = _; rw [e4]; omega
  have hJ1 : ((((cfg0.win 2).blk t).view.emb j) 1).val = (j 1).val := by
    show win0_2.index t 1 * 16 + 1 * (j 1).val = _; rw [e5]; omega
  refine blockOne_entry _ _ _ _ j _ (fun y Y hy hY0 hY1 => ?_) (fun y Y hY0 hy hY1 => ?_)
  · exact blockOne_lhs V c t y Y (by rw [hY0, hJ0, hy]) hY1
  · exact blockOne_rhs V c t y Y hY0 (by rw [hY1, hJ1, hy])

/-- An index of the output array is in point `t`'s block iff each coordinate is in the block's range on its axis. -/
theorem blockOne_mem (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- The blocks tile the array: row `r` is in block `r / 5000`, and every point writes its block back. -/
theorem blockOne_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  refine ⟨⟨(i 0).val / 5000, by rw [hN]; omega⟩, flush0_2 _, ?_⟩
  obtain ⟨-, -, -, -, e4, e5⟩ := blockOne_indices ⟨(i 0).val / 5000, by rw [hN]; omega⟩
  rw [blockOne_mem]
  intro a
  match a with
  | ⟨0, _⟩ =>
    show win0_2.index _ 0 * 5000 ≤ (i 0).val ∧ (i 0).val < win0_2.index _ 0 * 5000 + 5000
    rw [e4]; show (i 0).val / 5000 * 5000 ≤ (i 0).val ∧ (i 0).val < (i 0).val / 5000 * 5000 + 5000; omega
  | ⟨1, _⟩ =>
    show win0_2.index _ 1 * 16 ≤ (i 1).val ∧ (i 1).val < win0_2.index _ 1 * 16 + 16
    rw [e5]; omega

/-- THE OUTPUT ARRAY after the first pallas_call: the whole product of the arrays at its two operands. -/
theorem firstProduct (c : Dev nD) :
    (dat0 (F := Ideal) V c).arrAt 2 cfg0.N
      = Cert.ReferenceIdeal.ReadP.val_main_v32 (F := Ideal) (V c main_arg0) (V c main_arg2) :=
  (dat0 (F := Ideal) V c).arrAt_eq_of_cover 2 _ (fun t _ => blockOne_flushed V c t) blockOne_cover

end Cert.KernelIdeal.Whole

end
-- ==== Proof.SecondProduct.lean ====
/-
  The second matrix product, `relu(h) · W2`, computed by the kernel ten row blocks at a time with the rectifier applied as
  each block is loaded, IS the whole product of the rectified matrix. Grid point `t` loads rows `10000 t … 10000 t + 9999`
  of `h` (all 16 columns) and the whole of `W2`, takes `max(·, 0)` of the loaded rows entry by entry, multiplies into a zero
  accumulator and writes the 10000 × 7 result back as the same rows of the output. Entry `(p, q)` of that block is
  `∑ k < 16, max(h[10000 t + p, k], 0) · W2[k, q]`. The rectifier acts entry by entry, so rectifying a block of rows is
  taking those rows of the rectified matrix, and the sum is entry `(10000 t + p, q)` of `max(h, 0) · W2` — the same sum over
  the same `k`; no finiteness is needed. The ten blocks tile the 100000 rows (row `r` lies in block `r / 10000`), so the
  output array ends holding the reference's `dot_general` of its rectified operand — for ANY contents `V` of the buffers
  at the region's entry.
-/
import proofs.«148894_j8787503087873_2_alg».proof.Proof.Gen.KernelIdeal.Frame
import proofs.«148894_j8787503087873_2_alg».proof.Proof.RefRead
import proofs.«148894_j8787503087873_2_alg».proof.Proof.LibContractionRows
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

/-! ## The block product's operand indices: output entry `(p, q)` and contraction position `k` read `(p, k)` and `(k, q)` -/

theorem blockTwo_lhs_row (j : S10000x7.Idx) (q : dot_S10000x16_S16x7_S10000x7_1_0_0_1_n_n.contr.Idx) :
    (dot_S10000x16_S16x7_S10000x7_1_0_0_1_n_n.lhsIdx j q 0).val = (j 0).val := by
  unfold DotDims.lhsIdx
  rw [dif_neg (show ¬(0 : Fin S10000x16.rank) ∈ dot_S10000x16_S16x7_S10000x7_1_0_0_1_n_n.lhsBatch by decide), dif_pos (show (0 : Fin S10000x16.rank) ∈ dot_S10000x16_S16x7_S10000x7_1_0_0_1_n_n.lhsNonContracting by decide)]
  rfl
theorem blockTwo_lhs_k (j : S10000x7.Idx) (q : dot_S10000x16_S16x7_S10000x7_1_0_0_1_n_n.contr.Idx) :
    (dot_S10000x16_S16x7_S10000x7_1_0_0_1_n_n.lhsIdx j q 1).val = (q ⟨0, by decide⟩).val :=
  dot_S10000x16_S16x7_S10000x7_1_0_0_1_n_n.lhsIdx_val_of_single rfl j q
theorem blockTwo_rhs_k (j : S10000x7.Idx) (q : dot_S10000x16_S16x7_S10000x7_1_0_0_1_n_n.contr.Idx) :
    (dot_S10000x16_S16x7_S10000x7_1_0_0_1_n_n.rhsIdx j q 0).val = (q ⟨0, by decide⟩).val :=
  dot_S10000x16_S16x7_S10000x7_1_0_0_1_n_n.rhsIdx_val_of_single rfl j q
theorem blockTwo_rhs_col (j : S10000x7.Idx) (q : dot_S10000x16_S16x7_S10000x7_1_0_0_1_n_n.contr.Idx) :
    (dot_S10000x16_S16x7_S10000x7_1_0_0_1_n_n.rhsIdx j q 1).val = (j 1).val := by
  unfold DotDims.rhsIdx
  rw [dif_neg (show ¬(1 : Fin S16x7.rank) ∈ dot_S10000x16_S16x7_S10000x7_1_0_0_1_n_n.rhsBatch by decide), dif_pos (show (1 : Fin S16x7.rank) ∈ dot_S10000x16_S16x7_S10000x7_1_0_0_1_n_n.rhsNonContracting by decide)]
  rfl

/-! ## One entry of a block's rectified product -/

/-- The whole rectified product: the reference's `dot_general` of `max(H, 0)` (its own zero splat) with `W`. -/
abbrev rectifiedProduct (H : FVec Ideal Cert.ReferenceIdeal.S100000x16 .f32) (W : FVec Ideal Cert.ReferenceIdeal.S16x7 .f32) :
    FVec Ideal Cert.ReferenceIdeal.S100000x7 .f32 :=
  Host.dotGeneral (F := Ideal) Cert.ReferenceIdeal.dot_S100000x16_S16x7_S100000x7_1_0_0_1_n_n none
    (maximumf H (Cert.ReferenceIdeal.ReadP.val_main_call1_v0 (F := Ideal))) W

/-- Entry `j` of a block's rectified product is entry `J` of `max(H, 0) · W`, as soon as the block's row `j 0` is row
    `J 0` of `H`, the block's right operand is `W`, and `j`, `J` name the same column. -/
theorem blockTwo_entry (hb : Vec Ideal S10000x16 .f32) (wb : Vec Ideal S16x7 .f32)
    (H : FVec Ideal Cert.ReferenceIdeal.S100000x16 .f32) (W : FVec Ideal Cert.ReferenceIdeal.S16x7 .f32)
    (j : S10000x7.Idx) (J : Cert.ReferenceIdeal.S100000x7.Idx)
    (hx : ∀ (y : S10000x16.Idx) (Y : Cert.ReferenceIdeal.S100000x16.Idx),
      (y 0).val = (j 0).val → (Y 0).val = (J 0).val → (Y 1).val = (y 1).val → hb y = H Y)
    (hw : ∀ (y : S16x7.Idx) (Y : Cert.ReferenceIdeal.S16x7.Idx),
      (Y 0).val = (y 0).val → (y 1).val = (j 1).val → (Y 1).val = (J 1).val → wb y = W Y) :
    k1_pay1 (F := Ideal) hb wb j = rectifiedProduct H W J := by
  show FloatOps.matmul (F := Ideal) dot_S10000x16_S16x7_S10000x7_1_0_0_1_n_n (some .fp32)
      (maximumf (shapeCast S10000x16 hb shapeCasts_S10000x16_S10000x16) (broadcast S10000x16 (Scalar.ofBits .f32 0x00000000#32)))
      wb (constant S10000x7 .f32 0x00000000#32) j
    = FloatOps.dotGeneral (F := Ideal) Cert.ReferenceIdeal.dot_S100000x16_S16x7_S100000x7_1_0_0_1_n_n none .single
      (maximumf H (Cert.ReferenceIdeal.ReadP.val_main_call1_v0 (F := Ideal))) W J
  rw [shapeCast_self]
  refine Cert.Lib.ContractionRows.matmul_zero_eq_dotGeneral dot_S10000x16_S16x7_S10000x7_1_0_0_1_n_n Cert.ReferenceIdeal.dot_S100000x16_S16x7_S100000x7_1_0_0_1_n_n 16
    rfl rfl rfl rfl _ _ _ _ wb _ W j J (fun k => ?_) (fun k => ?_)
  · show FloatOps.maximumf (hb _) (Scalar.ofBits (F := Ideal) .f32 0x00000000#32)
      = FloatOps.maximumf (H _) (Cert.ReferenceIdeal.ReadP.val_main_call1_v0 (F := Ideal) _)
    refine congrArg₂ FloatOps.maximumf ?_ ?_
    · refine hx _ _ (blockTwo_lhs_row j _) (Cert.ReferenceIdeal.ReadP.lhs_main_v50_0 J _) ?_
      exact ((Cert.ReferenceIdeal.ReadP.lhs_main_v50_1 J _).trans (contrEquiv1_symm_val Cert.ReferenceIdeal.dot_S100000x16_S16x7_S100000x7_1_0_0_1_n_n 16 rfl rfl k)).trans
        ((blockTwo_lhs_k j _).trans (contrEquiv1_symm_val dot_S10000x16_S16x7_S10000x7_1_0_0_1_n_n 16 rfl rfl k)).symm
    · exact ((Cert.ReferenceIdeal.ReadP.val_main_call1_v0_apply (F := Ideal) _).trans
        (Cert.ReferenceIdeal.ReadP.val_main_call1_cst_apply (F := Ideal) _)).symm
  · refine hw _ _ ?_ (blockTwo_rhs_col j _) (Cert.ReferenceIdeal.ReadP.rhs_main_v50_1 J _)
    exact ((Cert.ReferenceIdeal.ReadP.rhs_main_v50_0 J _).trans (contrEquiv1_symm_val Cert.ReferenceIdeal.dot_S100000x16_S16x7_S100000x7_1_0_0_1_n_n 16 rfl rfl k)).trans
      ((blockTwo_rhs_k j _).trans (contrEquiv1_symm_val dot_S10000x16_S16x7_S10000x7_1_0_0_1_n_n 16 rfl rfl k)).symm

/-! ## The windows' blocks, as rows of the arrays -/

theorem zeroOffsets' : (![0, 0] : Fin 2 → Nat) = fun _ => 0 := funext fun a => by fin_cases a <;> rfl

/-- The printed index maps, decided over the ten grid points: the left operand's and the output's blocks are block
    row `t`; the right operand's block is the whole matrix. -/
theorem blockTwo_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The left operand's block at point `t` is rows `10000 t …` of the array at `main_v48`. -/
theorem blockTwo_lhs (c : Dev nD) (t : Fin cfg1.N) (y : S10000x16.Idx) (Y : Cert.ReferenceIdeal.S100000x16.Idx)
    (h0 : (Y 0).val = t.val * 10000 + (y 0).val) (h1 : (Y 1).val = (y 1).val) :
    (iblk1 V c 0 t : Vec Ideal S10000x16 .f32) y = (V c main_v48 : Cert.ReferenceIdeal.S100000x16.Idx → Elt Ideal .f32) Y := by
  obtain ⟨e0, e1, -⟩ := blockTwo_indices t
  unfold iblk1
  rw [View.read_apply]
  show V c main_v48 _ = V c main_v48 _
  congr 1
  funext a
  apply Fin.ext
  match a with
  | ⟨0, _⟩ => show win1_0.index t 0 * 10000 + 1 * (y 0).val = (Y 0).val; rw [e0, h0]; omega
  | ⟨1, _⟩ => show win1_0.index t 1 * 16 + 1 * (y 1).val = (Y 1).val; rw [e1, h1]; omega

/-- The right operand's block at every point is the whole array at `main_arg4`. -/
theorem blockTwo_rhs (c : Dev nD) (t : Fin cfg1.N) (y : S16x7.Idx) (Y : Cert.ReferenceIdeal.S16x7.Idx)
    (h0 : (Y 0).val = (y 0).val) (h1 : (Y 1).val = (y 1).val) :
    (iblk1 V c 1 t : Vec Ideal S16x7 .f32) y = (V c main_arg4 : Cert.ReferenceIdeal.S16x7.Idx → Elt Ideal .f32) Y := by
  obtain ⟨-, -, e2, e3, -⟩ := blockTwo_indices t
  unfold iblk1
  rw [View.read_apply]
  show V c main_arg4 _ = V c main_arg4 _
  congr 1
  funext a
  apply Fin.ext
  match a with
  | ⟨0, _⟩ => show win1_1.index t 0 * 16 + 1 * (y 0).val = (Y 0).val; rw [e2, h0]; omega
  | ⟨1, _⟩ => show win1_1.index t 1 * 7 + 1 * (y 1).val = (Y 1).val; rw [e3, h1]; omega

/-! ## What each point writes back, and the whole array -/

/-- WHAT POINT `t` WRITES BACK is block `t` of the whole rectified product of the two arrays the region finds. -/
theorem blockTwo_flushed (c : Dev nD) (t : Fin cfg1.N) :
    (dat1 (F := Ideal) V c).flushed 2 t = ((cfg1.win 2).blk t).view.read (Elt Ideal)
      (rectifiedProduct (V c main_v48) (V c main_arg4)) := by
  show (cfg1.win 2).cut (grid1.coords t) ((dat1 V c).after 2 t) = _
  rw [after1_2]
  unfold out1_2
  rw [View.canon_unit_zero zeroOffsets']
  simp only [View.ld_unit_zero (S := S10000x16) zeroOffsets', View.ld_unit_zero (S := S16x7) zeroOffsets']
  obtain ⟨-, -, -, -, e4, e5⟩ := blockTwo_indices t
  funext j
  show k1_pay1 (F := Ideal) (iblk1 V c 0 t) (iblk1 V c 1 t) j
    = rectifiedProduct (V c main_v48) (V c main_arg4) (((cfg1.win 2).blk t).view.emb j)
  have hJ0 : ((((cfg1.win 2).blk t).view.emb j) 0).val = t.val * 10000 + (j 0).val := by
    show win1_2.index t 0 * 10000 + 1 * (j 0).val = _; rw [e4]; omega
  have hJ1 : ((((cfg1.win 2).blk t).view.emb j) 1).val = (j 1).val := by
    show win1_2.index t 1 * 7 + 1 * (j 1).val = _; rw [e5]; omega
  refine blockTwo_entry _ _ _ _ j _ (fun y Y hy hY0 hY1 => ?_) (fun y Y hY0 hy hY1 => ?_)
  · exact blockTwo_lhs V c t y Y (by rw [hY0, hJ0, hy]) hY1
  · exact blockTwo_rhs V c t y Y hY0 (by rw [hY1, hJ1, hy])

/-- An index of the output array is in point `t`'s block iff each coordinate is in the block's range on its axis. -/
theorem blockTwo_mem (t : Fin cfg1.N) (i : S100000x7.Idx) :
    i ∈ ((cfg1.win 2).blk t).view.set ↔ ∀ a : Fin 2, win1_2.index t a * S10000x7.size a ≤ (i a).val ∧ (i a).val < win1_2.index t a * S10000x7.size a + S10000x7.size a := by
  show i ∈ ((View.whole main_v49).slice (win1_2.rect t)).set ↔ _
  rw [View.set_slice_whole, Rect.mem_set_unit]
  exact Iff.rfl

/-- The blocks tile the array: row `r` is in block `r / 10000`, and every point writes its block back. -/
theorem blockTwo_cover (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 10 := N_1
  refine ⟨⟨(i 0).val / 10000, by rw [hN]; omega⟩, flush1_2 _, ?_⟩
  obtain ⟨-, -, -, -, e4, e5⟩ := blockTwo_indices ⟨(i 0).val / 10000, by rw [hN]; omega⟩
  rw [blockTwo_mem]
  intro a
  match a with
  | ⟨0, _⟩ =>
    show win1_2.index _ 0 * 10000 ≤ (i 0).val ∧ (i 0).val < win1_2.index _ 0 * 10000 + 10000
    rw [e4]; show (i 0).val / 10000 * 10000 ≤ (i 0).val ∧ (i 0).val < (i 0).val / 10000 * 10000 + 10000; omega
  | ⟨1, _⟩ =>
    show win1_2.index _ 1 * 7 ≤ (i 1).val ∧ (i 1).val < win1_2.index _ 1 * 7 + 7
    rw [e5]; omega

/-- THE OUTPUT ARRAY after the second pallas_call: the whole rectified product of the arrays at its two operands. -/
theorem secondProduct (c : Dev nD) :
    (dat1 (F := Ideal) V c).arrAt 2 cfg1.N = rectifiedProduct (V c main_v48) (V c main_arg4) :=
  (dat1 (F := Ideal) V c).arrAt_eq_of_cover 2 _ (fun t _ => blockTwo_flushed V c t) blockTwo_cover

end Cert.KernelIdeal.Whole

end
-- ==== Proof.Boundaries.lean ====
/-
  The buffer contents at each boundary between @main's segments, as arithmetic. The kernel's @main and the reference's
  are the same host operations line for line — the degree count, its rectified inverse square root, the edge weights, and
  twice "gather the rows at the sources, scale by the edge weight, add into the rows at the targets, add the bias" —
  except that the reference multiplies by `W1` and by `W2` with one `dot_general` each (rectifying in between) where
  the kernel launches its two row-blocked pallas_calls. So each boundary's contents, at the buffers later segments read,
  are the reference's own stage of the same name applied to the argument arrays: the stages before the first product by
  composing the host operations; the first product by `firstProduct`; the middle stretch by composing again over that; the
  second product by `secondProduct` (the rectifier it fuses into the load is the reference's `relu`, same zero); the
  last stretch by composing once more. The shared host operations are never opened: each step only says that equal
  operands give equal results. The last boundary at the result's buffer is then the reference's result term.
-/
import proofs.«148894_j8787503087873_2_alg».proof.Proof.Gen.KernelIdeal.Frame
import proofs.«148894_j8787503087873_2_alg».proof.Proof.RefRead
import proofs.«148894_j8787503087873_2_alg».proof.Proof.FirstProduct
import proofs.«148894_j8787503087873_2_alg».proof.Proof.SecondProduct
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen

variable (m : (ℓ : Loc nD τ sig) → Buf (Elt Ideal) ℓ) (ρ : Dev nD → PrngReg) (c : Dev nD)

/-! ## The six argument arrays as launched, at the types the reference's stages take them -/

abbrev argX : FVec Ideal Cert.ReferenceIdeal.S100000x512 .f32 := m ((c : Thread nD τ).loc main_arg0)
abbrev argE : (⟨Cert.ReferenceIdeal.S2x3200000, .i32⟩ : BufTy).Contents (Elt Ideal) := m ((c : Thread nD τ).loc main_arg1)
abbrev argW1 : FVec Ideal Cert.ReferenceIdeal.S512x16 .f32 := m ((c : Thread nD τ).loc main_arg2)
abbrev argB1 : FVec Ideal Cert.ReferenceIdeal.S16 .f32 := m ((c : Thread nD τ).loc main_arg3)
abbrev argW2 : FVec Ideal Cert.ReferenceIdeal.S16x7 .f32 := m ((c : Thread nD τ).loc main_arg4)
abbrev argB2 : FVec Ideal Cert.ReferenceIdeal.S7 .f32 := m ((c : Thread nD τ).loc main_arg5)

/-! ## The host stretches, each over ANY contents `V` of the buffers it starts from

What a stretch leaves in a buffer it writes, given what the buffers it reads hold; and that it leaves alone the buffers
later segments read. -/

theorem stretchA_v3 (V : Valuation τ sig (Elt Ideal)) :
    StableHlo.after hostOps0 V (Proc.devRef .tc main_v3) = Cert.ReferenceIdeal.ReadP.val_main_v3 (F := Ideal) (V (Proc.devRef .tc main_arg1)) := by
  after_results_simp <;> rfl
theorem stretchA_v6 (V : Valuation τ sig (Elt Ideal)) :
    StableHlo.after hostOps0 V (Proc.devRef .tc main_v6) = Cert.ReferenceIdeal.ReadP.val_main_v6 (F := Ideal) (V (Proc.devRef .tc main_arg1)) := by
  after_results_simp <;> rfl
theorem stretchA_v12 (V : Valuation τ sig (Elt Ideal)) :
    StableHlo.after hostOps0 V (Proc.devRef .tc main_v12) = Cert.ReferenceIdeal.ReadP.val_main_v12 (F := Ideal) (V (Proc.devRef .tc main_arg1)) := by
  after_results_simp <;> rfl
theorem stretchA_v15 (V : Valuation τ sig (Elt Ideal)) :
    StableHlo.after hostOps0 V (Proc.devRef .tc main_v15) = Cert.ReferenceIdeal.ReadP.val_main_v15 (F := Ideal) (V (Proc.devRef .tc main_arg1)) := by
  after_results_simp <;> rfl
theorem stretchA_cst_3 (V : Valuation τ sig (Elt Ideal)) :
    StableHlo.after hostOps0 V (Proc.devRef .tc main_cst_3) = Cert.ReferenceIdeal.ReadP.val_main_cst_3 (F := Ideal) := by
  after_results_simp <;> rfl
theorem hostOps0_keeps_arg0 (V : Valuation τ sig (Elt Ideal)) : StableHlo.after hostOps0 V (Proc.devRef .tc main_arg0) = V (Proc.devRef .tc main_arg0) := by
  after_results_simp
theorem hostOps0_keeps_arg2 (V : Valuation τ sig (Elt Ideal)) : StableHlo.after hostOps0 V (Proc.devRef .tc main_arg2) = V (Proc.devRef .tc main_arg2) := by
  after_results_simp
theorem hostOps0_keeps_arg3 (V : Valuation τ sig (Elt Ideal)) : StableHlo.after hostOps0 V (Proc.devRef .tc main_arg3) = V (Proc.devRef .tc main_arg3) := by
  after_results_simp
theorem hostOps0_keeps_arg4 (V : Valuation τ sig (Elt Ideal)) : StableHlo.after hostOps0 V (Proc.devRef .tc main_arg4) = V (Proc.devRef .tc main_arg4) := by
  after_results_simp
theorem hostOps0_keeps_arg5 (V : Valuation τ sig (Elt Ideal)) : StableHlo.after hostOps0 V (Proc.devRef .tc main_arg5) = V (Proc.devRef .tc main_arg5) := by
  after_results_simp

theorem stretchB_v16 (V : Valuation τ sig (Elt Ideal)) (p : IVec S100000 1) (a : FVec Ideal S100000 .f32) (z : FVec Ideal S_ .f32)
    (h12 : V (Proc.devRef .tc main_v12) = p) (h15 : V (Proc.devRef .tc main_v15) = a) (hc : V (Proc.devRef .tc main_cst_3) = z) :
    StableHlo.after hostOps0_1 V (Proc.devRef .tc main_v16)
      = select p a (broadcastInDim S100000 ![] bcast_S_S100000 (id z)) := by
  subst h12 h15 hc
  after_results_simp <;> rfl
theorem hostOps0_1_keeps_v3 (V : Valuation τ sig (Elt Ideal)) : StableHlo.after hostOps0_1 V (Proc.devRef .tc main_v3) = V (Proc.devRef .tc main_v3) := by
  after_results_simp
theorem hostOps0_1_keeps_v6 (V : Valuation τ sig (Elt Ideal)) : StableHlo.after hostOps0_1 V (Proc.devRef .tc main_v6) = V (Proc.devRef .tc main_v6) := by
  after_results_simp
theorem hostOps0_1_keeps_arg0 (V : Valuation τ sig (Elt Ideal)) : StableHlo.after hostOps0_1 V (Proc.devRef .tc main_arg0) = V (Proc.devRef .tc main_arg0) := by
  after_results_simp
theorem hostOps0_1_keeps_arg2 (V : Valuation τ sig (Elt Ideal)) : StableHlo.after hostOps0_1 V (Proc.devRef .tc main_arg2) = V (Proc.devRef .tc main_arg2) := by
  after_results_simp
theorem hostOps0_1_keeps_arg3 (V : Valuation τ sig (Elt Ideal)) : StableHlo.after hostOps0_1 V (Proc.devRef .tc main_arg3) = V (Proc.devRef .tc main_arg3) := by
  after_results_simp
theorem hostOps0_1_keeps_arg4 (V : Valuation τ sig (Elt Ideal)) : StableHlo.after hostOps0_1 V (Proc.devRef .tc main_arg4) = V (Proc.devRef .tc main_arg4) := by
  after_results_simp
theorem hostOps0_1_keeps_arg5 (V : Valuation τ sig (Elt Ideal)) : StableHlo.after hostOps0_1 V (Proc.devRef .tc main_arg5) = V (Proc.devRef .tc main_arg5) := by
  after_results_simp

theorem stretchC_v31 (V : Valuation τ sig (Elt Ideal)) (e : (⟨Cert.ReferenceIdeal.S2x3200000, .i32⟩ : BufTy).Contents (Elt Ideal)) (h16 : V (Proc.devRef .tc main_v16) = Cert.ReferenceIdeal.ReadP.val_main_v16 (F := Ideal) e)
    (h3 : V (Proc.devRef .tc main_v3) = Cert.ReferenceIdeal.ReadP.val_main_v3 (F := Ideal) e) (h6 : V (Proc.devRef .tc main_v6) = Cert.ReferenceIdeal.ReadP.val_main_v6 (F := Ideal) e) :
    StableHlo.after hostOps0_2 V (Proc.devRef .tc main_v31) = Cert.ReferenceIdeal.ReadP.val_main_v31 (F := Ideal) e := by
  after_results_simp
  rw [h16, h3, h6]
  rfl
theorem hostOps0_2_keeps_v3 (V : Valuation τ sig (Elt Ideal)) : StableHlo.after hostOps0_2 V (Proc.devRef .tc main_v3) = V (Proc.devRef .tc main_v3) := by
  after_results_simp
theorem hostOps0_2_keeps_v6 (V : Valuation τ sig (Elt Ideal)) : StableHlo.after hostOps0_2 V (Proc.devRef .tc main_v6) = V (Proc.devRef .tc main_v6) := by
  after_results_simp
theorem hostOps0_2_keeps_arg0 (V : Valuation τ sig (Elt Ideal)) : StableHlo.after hostOps0_2 V (Proc.devRef .tc main_arg0) = V (Proc.devRef .tc main_arg0) := by
  after_results_simp
theorem hostOps0_2_keeps_arg2 (V : Valuation τ sig (Elt Ideal)) : StableHlo.after hostOps0_2 V (Proc.devRef .tc main_arg2) = V (Proc.devRef .tc main_arg2) := by
  after_results_simp
theorem hostOps0_2_keeps_arg3 (V : Valuation τ sig (Elt Ideal)) : StableHlo.after hostOps0_2 V (Proc.devRef .tc main_arg3) = V (Proc.devRef .tc main_arg3) := by
  after_results_simp
theorem hostOps0_2_keeps_arg4 (V : Valuation τ sig (Elt Ideal)) : StableHlo.after hostOps0_2 V (Proc.devRef .tc main_arg4) = V (Proc.devRef .tc main_arg4) := by
  after_results_simp
theorem hostOps0_2_keeps_arg5 (V : Valuation τ sig (Elt Ideal)) : StableHlo.after hostOps0_2 V (Proc.devRef .tc main_arg5) = V (Proc.devRef .tc main_arg5) := by
  after_results_simp

theorem stretchD_v48 (V : Valuation τ sig (Elt Ideal)) (x0 : FVec Ideal Cert.ReferenceIdeal.S100000x512 .f32) (e : (⟨Cert.ReferenceIdeal.S2x3200000, .i32⟩ : BufTy).Contents (Elt Ideal)) (w1 : FVec Ideal Cert.ReferenceIdeal.S512x16 .f32) (b1 : FVec Ideal Cert.ReferenceIdeal.S16 .f32)
    (h32 : V (Proc.devRef .tc main_v32) = Cert.ReferenceIdeal.ReadP.val_main_v32 (F := Ideal) x0 w1)
    (h3 : V (Proc.devRef .tc main_v3) = Cert.ReferenceIdeal.ReadP.val_main_v3 (F := Ideal) e) (h6 : V (Proc.devRef .tc main_v6) = Cert.ReferenceIdeal.ReadP.val_main_v6 (F := Ideal) e)
    (h31 : V (Proc.devRef .tc main_v31) = Cert.ReferenceIdeal.ReadP.val_main_v31 (F := Ideal) e) (hb : V (Proc.devRef .tc main_arg3) = b1) :
    StableHlo.after hostOps1 V (Proc.devRef .tc main_v48) = Cert.ReferenceIdeal.ReadP.val_main_v48 (F := Ideal) x0 e w1 b1 := by
  after_results_simp
  rw [h32, h3, h6, h31, hb]
  rfl
theorem hostOps1_keeps_v3 (V : Valuation τ sig (Elt Ideal)) : StableHlo.after hostOps1 V (Proc.devRef .tc main_v3) = V (Proc.devRef .tc main_v3) := by
  after_results_simp
theorem hostOps1_keeps_v6 (V : Valuation τ sig (Elt Ideal)) : StableHlo.after hostOps1 V (Proc.devRef .tc main_v6) = V (Proc.devRef .tc main_v6) := by
  after_results_simp
theorem hostOps1_keeps_v31 (V : Valuation τ sig (Elt Ideal)) : StableHlo.after hostOps1 V (Proc.devRef .tc main_v31) = V (Proc.devRef .tc main_v31) := by
  after_results_simp
theorem hostOps1_keeps_arg4 (V : Valuation τ sig (Elt Ideal)) : StableHlo.after hostOps1 V (Proc.devRef .tc main_arg4) = V (Proc.devRef .tc main_arg4) := by
  after_results_simp
theorem hostOps1_keeps_arg5 (V : Valuation τ sig (Elt Ideal)) : StableHlo.after hostOps1 V (Proc.devRef .tc main_arg5) = V (Proc.devRef .tc main_arg5) := by
  after_results_simp

theorem stretchE_v65 (V : Valuation τ sig (Elt Ideal)) (x0 : FVec Ideal Cert.ReferenceIdeal.S100000x512 .f32) (e : (⟨Cert.ReferenceIdeal.S2x3200000, .i32⟩ : BufTy).Contents (Elt Ideal)) (w1 : FVec Ideal Cert.ReferenceIdeal.S512x16 .f32) (b1 : FVec Ideal Cert.ReferenceIdeal.S16 .f32) (w2 : FVec Ideal Cert.ReferenceIdeal.S16x7 .f32) (b2 : FVec Ideal Cert.ReferenceIdeal.S7 .f32)
    (h49 : V (Proc.devRef .tc main_v49) = Cert.ReferenceIdeal.ReadP.val_main_v50 (F := Ideal) x0 e w1 b1 w2)
    (h3 : V (Proc.devRef .tc main_v3) = Cert.ReferenceIdeal.ReadP.val_main_v3 (F := Ideal) e) (h6 : V (Proc.devRef .tc main_v6) = Cert.ReferenceIdeal.ReadP.val_main_v6 (F := Ideal) e)
    (h31 : V (Proc.devRef .tc main_v31) = Cert.ReferenceIdeal.ReadP.val_main_v31 (F := Ideal) e) (hb : V (Proc.devRef .tc main_arg5) = b2) :
    StableHlo.after hostOps2 V (Proc.devRef .tc main_v65) = Cert.ReferenceIdeal.ReadP.val_main_v66 (F := Ideal) x0 e w1 b1 w2 b2 := by
  after_results_simp
  rw [h49, h3, h6, h31, hb]
  rfl

/-! ## Before the first product: the edge lists with self loops appended, the edge weights, and the untouched arguments -/

theorem at1_v3 : W1 m ρ c (Proc.devRef .tc main_v3) = Cert.ReferenceIdeal.ReadP.val_main_v3 (F := Ideal) (argE m c) :=
  stretchA_v3 (W0 m ρ c)
theorem at1_v6 : W1 m ρ c (Proc.devRef .tc main_v6) = Cert.ReferenceIdeal.ReadP.val_main_v6 (F := Ideal) (argE m c) :=
  stretchA_v6 (W0 m ρ c)
theorem at1_v12 : W1 m ρ c (Proc.devRef .tc main_v12) = Cert.ReferenceIdeal.ReadP.val_main_v12 (F := Ideal) (argE m c) :=
  stretchA_v12 (W0 m ρ c)
theorem at1_v15 : W1 m ρ c (Proc.devRef .tc main_v15) = Cert.ReferenceIdeal.ReadP.val_main_v15 (F := Ideal) (argE m c) :=
  stretchA_v15 (W0 m ρ c)
theorem at1_cst_3 : W1 m ρ c (Proc.devRef .tc main_cst_3) = Cert.ReferenceIdeal.ReadP.val_main_cst_3 (F := Ideal) :=
  stretchA_cst_3 (W0 m ρ c)
theorem at2_v16 : W2 m ρ c (Proc.devRef .tc main_v16) = Cert.ReferenceIdeal.ReadP.val_main_v16 (F := Ideal) (argE m c) :=
  (stretchB_v16 (W1 m ρ c) _ _ _ (at1_v12 m ρ c) (at1_v15 m ρ c) (at1_cst_3 m ρ c)).trans rfl
theorem at2_v3 : W2 m ρ c (Proc.devRef .tc main_v3) = Cert.ReferenceIdeal.ReadP.val_main_v3 (F := Ideal) (argE m c) := (hostOps0_1_keeps_v3 (W1 m ρ c)).trans (at1_v3 m ρ c)
theorem at2_v6 : W2 m ρ c (Proc.devRef .tc main_v6) = Cert.ReferenceIdeal.ReadP.val_main_v6 (F := Ideal) (argE m c) := (hostOps0_1_keeps_v6 (W1 m ρ c)).trans (at1_v6 m ρ c)
theorem at3_v31 : W3 m ρ c (Proc.devRef .tc main_v31) = Cert.ReferenceIdeal.ReadP.val_main_v31 (F := Ideal) (argE m c) :=
  stretchC_v31 (W2 m ρ c) (argE m c) (at2_v16 m ρ c) (at2_v3 m ρ c) (at2_v6 m ρ c)
theorem at3_v3 : W3 m ρ c (Proc.devRef .tc main_v3) = Cert.ReferenceIdeal.ReadP.val_main_v3 (F := Ideal) (argE m c) := (hostOps0_2_keeps_v3 (W2 m ρ c)).trans (at2_v3 m ρ c)
theorem at3_v6 : W3 m ρ c (Proc.devRef .tc main_v6) = Cert.ReferenceIdeal.ReadP.val_main_v6 (F := Ideal) (argE m c) := (hostOps0_2_keeps_v6 (W2 m ρ c)).trans (at2_v6 m ρ c)
theorem at3_arg0 : W3 m ρ c (Proc.devRef .tc main_arg0) = argX m c :=
  (hostOps0_2_keeps_arg0 (W2 m ρ c)).trans ((hostOps0_1_keeps_arg0 (W1 m ρ c)).trans (hostOps0_keeps_arg0 (W0 m ρ c)))
theorem at3_arg2 : W3 m ρ c (Proc.devRef .tc main_arg2) = argW1 m c :=
  (hostOps0_2_keeps_arg2 (W2 m ρ c)).trans ((hostOps0_1_keeps_arg2 (W1 m ρ c)).trans (hostOps0_keeps_arg2 (W0 m ρ c)))
theorem at3_arg3 : W3 m ρ c (Proc.devRef .tc main_arg3) = argB1 m c :=
  (hostOps0_2_keeps_arg3 (W2 m ρ c)).trans ((hostOps0_1_keeps_arg3 (W1 m ρ c)).trans (hostOps0_keeps_arg3 (W0 m ρ c)))
theorem at3_arg4 : W3 m ρ c (Proc.devRef .tc main_arg4) = argW2 m c :=
  (hostOps0_2_keeps_arg4 (W2 m ρ c)).trans ((hostOps0_1_keeps_arg4 (W1 m ρ c)).trans (hostOps0_keeps_arg4 (W0 m ρ c)))
theorem at3_arg5 : W3 m ρ c (Proc.devRef .tc main_arg5) = argB2 m c :=
  (hostOps0_2_keeps_arg5 (W2 m ρ c)).trans ((hostOps0_1_keeps_arg5 (W1 m ρ c)).trans (hostOps0_keeps_arg5 (W0 m ρ c)))

/-! ## After the first pallas_call: its output is `x · W1`; every other buffer is as it was -/

theorem at4_v32 : W4 m ρ c (Proc.devRef .tc main_v32) = Cert.ReferenceIdeal.ReadP.val_main_v32 (F := Ideal) (argX m c) (argW1 m c) :=
  ((W4_arr m ρ c 2).trans (firstProduct (V3 m ρ) c)).trans
    (congrArg₂ (Cert.ReferenceIdeal.ReadP.val_main_v32 (F := Ideal)) (at3_arg0 m ρ c) (at3_arg2 m ρ c))
theorem at4_v3 : W4 m ρ c (Proc.devRef .tc main_v3) = Cert.ReferenceIdeal.ReadP.val_main_v3 (F := Ideal) (argE m c) :=
  (W4_of_ne m ρ c main_v3 (by decide)).trans (at3_v3 m ρ c)
theorem at4_v6 : W4 m ρ c (Proc.devRef .tc main_v6) = Cert.ReferenceIdeal.ReadP.val_main_v6 (F := Ideal) (argE m c) :=
  (W4_of_ne m ρ c main_v6 (by decide)).trans (at3_v6 m ρ c)
theorem at4_v31 : W4 m ρ c (Proc.devRef .tc main_v31) = Cert.ReferenceIdeal.ReadP.val_main_v31 (F := Ideal) (argE m c) :=
  (W4_of_ne m ρ c main_v31 (by decide)).trans (at3_v31 m ρ c)
theorem at4_arg3 : W4 m ρ c (Proc.devRef .tc main_arg3) = argB1 m c :=
  (W4_of_ne m ρ c main_arg3 (by decide)).trans (at3_arg3 m ρ c)
theorem at4_arg4 : W4 m ρ c (Proc.devRef .tc main_arg4) = argW2 m c :=
  (W4_of_ne m ρ c main_arg4 (by decide)).trans (at3_arg4 m ρ c)
theorem at4_arg5 : W4 m ρ c (Proc.devRef .tc main_arg5) = argB2 m c :=
  (W4_of_ne m ρ c main_arg5 (by decide)).trans (at3_arg5 m ρ c)

/-! ## After the middle stretch: the first layer's aggregate plus bias -/

theorem at5_v48 : W5 m ρ c (Proc.devRef .tc main_v48) = Cert.ReferenceIdeal.ReadP.val_main_v48 (F := Ideal) (argX m c) (argE m c) (argW1 m c) (argB1 m c) :=
  stretchD_v48 (W4 m ρ c) (argX m c) (argE m c) (argW1 m c) (argB1 m c) (at4_v32 m ρ c) (at4_v3 m ρ c) (at4_v6 m ρ c)
    (at4_v31 m ρ c) (at4_arg3 m ρ c)
theorem at5_v3 : W5 m ρ c (Proc.devRef .tc main_v3) = Cert.ReferenceIdeal.ReadP.val_main_v3 (F := Ideal) (argE m c) := (hostOps1_keeps_v3 (W4 m ρ c)).trans (at4_v3 m ρ c)
theorem at5_v6 : W5 m ρ c (Proc.devRef .tc main_v6) = Cert.ReferenceIdeal.ReadP.val_main_v6 (F := Ideal) (argE m c) := (hostOps1_keeps_v6 (W4 m ρ c)).trans (at4_v6 m ρ c)
theorem at5_v31 : W5 m ρ c (Proc.devRef .tc main_v31) = Cert.ReferenceIdeal.ReadP.val_main_v31 (F := Ideal) (argE m c) := (hostOps1_keeps_v31 (W4 m ρ c)).trans (at4_v31 m ρ c)
theorem at5_arg4 : W5 m ρ c (Proc.devRef .tc main_arg4) = argW2 m c := (hostOps1_keeps_arg4 (W4 m ρ c)).trans (at4_arg4 m ρ c)
theorem at5_arg5 : W5 m ρ c (Proc.devRef .tc main_arg5) = argB2 m c := (hostOps1_keeps_arg5 (W4 m ρ c)).trans (at4_arg5 m ρ c)

/-! ## After the second pallas_call: its output is `relu(·) · W2` of that aggregate -/

theorem at6_v49 : W6 m ρ c (Proc.devRef .tc main_v49) = Cert.ReferenceIdeal.ReadP.val_main_v50 (F := Ideal) (argX m c) (argE m c) (argW1 m c) (argB1 m c) (argW2 m c) :=
  ((W6_arr m ρ c 2).trans (secondProduct (V5 m ρ) c)).trans
    (congrArg₂ rectifiedProduct (at5_v48 m ρ c) (at5_arg4 m ρ c))
theorem at6_v3 : W6 m ρ c (Proc.devRef .tc main_v3) = Cert.ReferenceIdeal.ReadP.val_main_v3 (F := Ideal) (argE m c) :=
  (W6_of_ne m ρ c main_v3 (by decide)).trans (at5_v3 m ρ c)
theorem at6_v6 : W6 m ρ c (Proc.devRef .tc main_v6) = Cert.ReferenceIdeal.ReadP.val_main_v6 (F := Ideal) (argE m c) :=
  (W6_of_ne m ρ c main_v6 (by decide)).trans (at5_v6 m ρ c)
theorem at6_v31 : W6 m ρ c (Proc.devRef .tc main_v31) = Cert.ReferenceIdeal.ReadP.val_main_v31 (F := Ideal) (argE m c) :=
  (W6_of_ne m ρ c main_v31 (by decide)).trans (at5_v31 m ρ c)
theorem at6_arg5 : W6 m ρ c (Proc.devRef .tc main_arg5) = argB2 m c :=
  (W6_of_ne m ρ c main_arg5 (by decide)).trans (at5_arg5 m ρ c)

/-! ## After the last stretch: the result -/

/-- THE RESULT: the last boundary's contents at the result's buffer are the reference's result stage of the six argument
    arrays. -/
theorem result_eq : W7 m ρ c (Proc.devRef .tc main_v65) = Cert.ReferenceIdeal.ReadP.val_main_v66 (F := Ideal) (argX m c) (argE m c) (argW1 m c) (argB1 m c) (argW2 m c) (argB2 m c) :=
  stretchE_v65 (W6 m ρ c) (argX m c) (argE m c) (argW1 m c) (argB1 m c) (argW2 m c) (argB2 m c) (at6_v49 m ρ c)
    (at6_v3 m ρ c) (at6_v6 m ρ c) (at6_v31 m ρ c) (at6_arg5 m ρ c)

end Cert.KernelIdeal.Whole

end
-- ==== Proof.lean ====
/-
  The proof of `Cert.Claim` for a two-layer graph convolution: twice "multiply by a weight matrix, gather the rows at the
  edges' sources, scale each by the edge's symmetric normalisation weight, add into the rows at the edges' targets, add
  the bias", with a rectifier between the layers. The kernel computes each of the two matrix products in a pallas_call,
  a block of rows per grid point with the whole weight matrix resident (the second one rectifying its rows as they are
  loaded), and everything else with the same host operations as the reference, line for line.

  At the ideal instance a block of rows times a matrix is those rows of the whole product — each entry the same sum over
  the same contraction index — so the two programs compute one function of the argument arrays. The law joining them
  is only "equal operands give equal results"; nothing is reordered or distributed, so the precondition (finite inputs)
  is never opened.

  * The three frames: the two kernel programs' by the generated frame certificates; the reference's by its run.
  * `preserves`: the idealization rewrote nothing, so the conjunct is `True`.
  * `algebraic`: the kernel's run ends with its result buffer at the last segment boundary's contents
    (`Whole.run_result`), which are the reference's result stage of the argument arrays (`Whole.result_eq`); the
    reference's run ends at the same stage of its own arguments, which agree with the kernel's.
-/
import proofs.«148894_j8787503087873_2_alg».proof.Defs
import proofs.«148894_j8787503087873_2_alg».proof.Proof.Gen.Kernel
import proofs.«148894_j8787503087873_2_alg».proof.Proof.Gen.Kernel.Frame
import proofs.«148894_j8787503087873_2_alg».proof.Proof.Gen.KernelIdeal
import proofs.«148894_j8787503087873_2_alg».proof.Proof.Gen.KernelIdeal.Frame
import proofs.«148894_j8787503087873_2_alg».proof.Proof.Gen.ReferenceIdeal
import proofs.«148894_j8787503087873_2_alg».proof.Proof.Gen.Pre_finite_inputs
import proofs.«148894_j8787503087873_2_alg».proof.Proof.RefRun
import proofs.«148894_j8787503087873_2_alg».proof.Proof.RefRead
import proofs.«148894_j8787503087873_2_alg».proof.Proof.KernelRun
import proofs.«148894_j8787503087873_2_alg».proof.Proof.Boundaries
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- Both idealized programs end at the reference's result stage of the (agreeing) argument arrays. -/
theorem algebraic : Cert.algebraic_KernelIdeal_ReferenceIdeal := by
  intro m ρ m' ρ' _ hagree
  refine ⟨fun c => Cert.ReferenceIdeal.ReadP.val_main_v66 (F := Ideal) (Cert.KernelIdeal.Whole.argX m c) (Cert.KernelIdeal.Whole.argE m c) (Cert.KernelIdeal.Whole.argW1 m c)
      (Cert.KernelIdeal.Whole.argB1 m c) (Cert.KernelIdeal.Whole.argW2 m c) (Cert.KernelIdeal.Whole.argB2 m c), ?_, ?_⟩
  · exact (θ_run Cert.KernelIdeal.defs _ _).mono (fun _ h c => ⟨(h c).1.trans (Cert.KernelIdeal.Whole.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v66_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
